-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def frame_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    frame_Kernel (hKernel := hKernel)
    ∧ frame_KernelIdeal (hKernelIdeal := hKernelIdeal)
    ∧ frame_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x8192 : Shape := ⟨2, ![4096, 8192]⟩
abbrev S256x8192 : Shape := ⟨2, ![256, 8192]⟩

abbrev nBuf : Space → Nat
  | .hbm => 4
  | .vmem => 6
  | .smem => 0
  | _ => 0

abbrev bufTy : (tb : Table) → Fin (tcTables nBuf tb) → BufTy
  | .hbm, ⟨0, _⟩ => ⟨S4096x8192, .i32⟩
  | .hbm, ⟨1, _⟩ => ⟨S4096x8192, .i1⟩
  | .hbm, ⟨2, _⟩ => ⟨S4096x8192, .i32⟩
  | .hbm, ⟨3, _⟩ => ⟨S4096x8192, .i32⟩
  | .local _ .vmem, ⟨0, _⟩ => ⟨S256x8192, .i32⟩
  | .local _ .vmem, ⟨1, _⟩ => ⟨S256x8192, .i32⟩
  | .local _ .vmem, ⟨2, _⟩ => ⟨S256x8192, .i32⟩
  | .local _ .vmem, ⟨3, _⟩ => ⟨S256x8192, .i32⟩
  | .local _ .vmem, ⟨4, _⟩ => ⟨S256x8192, .i32⟩
  | .local _ .vmem, ⟨5, _⟩ => ⟨S256x8192, .i32⟩
  | _, _ => ⟨S4096x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  natLt_1_32 : 1 < 32
  inb_S256x8192_S256x8192_0_0 : ∀ a, (![0, 0] : Fin 2 → Nat) a + S256x8192.size a ≤ S256x8192.size a
  h_S256x8192 : 0 < S256x8192.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S4096x8192.size a
  hwx0_0 : ∀ i : grid0.Coords, EltTy.bits .i32 = 32 ∨ (Rect.block (s := S4096x8192) S256x8192.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S4096x8192.size a
  hwx0_1 : ∀ i : grid0.Coords, EltTy.bits .i32 = 32 ∨ (Rect.block (s := S4096x8192) S256x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8192.size a ≤ S4096x8192.size a
  hwx0_2 : ∀ i : grid0.Coords, EltTy.bits .i32 = 32 ∨ (Rect.block (s := S4096x8192) S256x8192.size (cc0_transform_2 i) (hinb0_2 i)).WholeWords (EltTy.packing .i32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S4096x8192 : Shape := ⟨2, ![4096, 8192]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .i32⟩
  | .hbm, ⟨1, _⟩ => ⟨S4096x8192, .i1⟩
  | .hbm, ⟨2, _⟩ => ⟨S_, .i32⟩
  | .hbm, ⟨3, _⟩ => ⟨S4096x8192, .i32⟩
  | .hbm, ⟨4, _⟩ => ⟨S4096x8192, .i32⟩
  | _, _ => ⟨S4096x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)

variable [Facts₀]

class Facts : Prop extends Facts₀ where

variable [Facts]
-- ==== Proof.MaskedFill.lean ====
/-
  Replacing the masked words of a table by one filler word.

  The table has 4096 rows of 8192 thirty-two-bit words, and beside it lies a table of bits of the same
  shape. The result keeps the word of the table wherever the bit is clear and holds the filler word 22
  wherever the bit is set. Nothing here is arithmetic: every entry of the result depends on the one
  entry of the table and the one bit at the same place.

  One of the two programs compared reaches the bit through a detour: it first widens every bit to a
  32-bit word by zeros, and later asks of that word whether it differs from zero. On a single bit the
  detour is the identity (`ne_zero_widen`): the widened word is 0 or 1, and it differs from zero exactly
  when the bit was set.
-/
import Idealize.ShloMosaic.PureOps.Vector

namespace Cert.MaskedFill

open Idealize.ShloMosaic

/-- The shape of the table of words and of the table of bits. -/
abbrev Table : Shape := ⟨2, ![4096, 8192]⟩

/-- The filler word. -/
abbrev filler : BitVec 32 := 22#32

/-- The result, entry by entry: the filler where the bit is set, the table's own word elsewhere. -/
def fill (x : IVec Table 32) (bits : IVec Table 1) : IVec Table 32 :=
  fun i => Scalar.select (bits i) filler (x i)

/-- A bit is clear or set. -/
theorem bit_cases (b : BitVec 1) : b = 0#1 ∨ b = 1#1 := by
  obtain ⟨⟨v, hv⟩⟩ := b
  have hv' : v < 2 := hv
  have h : v = 0 ∨ v = 1 := by omega
  rcases h with rfl | rfl
  · exact Or.inl rfl
  · exact Or.inr rfl

/-- Widening a bit by zeros to a 32-bit word and asking whether that word differs from zero gives the
    bit back. -/
theorem ne_zero_widen (b : BitVec 1) : IntOp.cmpi .ne (b.setWidth 32) 0#32 = b := by
  rcases bit_cases b with rfl | rfl <;> rfl

end Cert.MaskedFill
-- ==== Proof.KernelFilled.lean ====
/-
  The kernel's result array is the masked fill.

  The kernel walks the table in 16 blocks of 256 whole rows. Before it starts, every bit of the bit table
  has been widened by zeros to a 32-bit word. At each block the body loads the block of the table and
  the block of widened bits at the same rows, and stores, entry by entry, the filler word 22 where the
  widened bit differs from zero and the table's word elsewhere. A widened bit differs from zero exactly
  when the bit was set (`ne_zero_widen`), so what a block writes back is the same block of `fill` of the two
  argument arrays. The 16 blocks tile the rows (row `r` lies in block `r / 256`), hence the whole result
  array is `fill` of the arguments.
-/
import proofs.«111843_j13950053778295_2_alg».proof.Proof.Gen.KernelIdeal.Value
import proofs.«111843_j13950053778295_2_alg».proof.Proof.MaskedFill
import Idealize.ShloMosaic.Lib.StableHlo.Run
import Idealize.ShloMosaic.Lib.Pipeline.Value

set_option maxRecDepth 16384

noncomputable section

namespace Cert.KernelIdeal.Filled

open Cert.KernelIdeal Cert.KernelIdeal.Gen Cert.KernelIdeal.Value Idealize.ShloMosaic Idealize.ShloMosaic.TcCoe Idealize.SL.Sem
open Idealize.ShloMosaic.Pipeline (Dat)
open Cert.MaskedFill

variable {F : FTy → Type} [FloatOps F]
variable (m : (ℓ : Loc nD τ sig) → Buf (Elt F) ℓ) (ρ : Dev nD → PrngReg)

/-! ## The widened bits -/

/-- When the blocks start to move, the second operand's array holds every bit of the bit table widened by
    zeros to a 32-bit word. -/
theorem widened_bits (c : Dev nD) :
    (V m c main_v0 : S4096x8192.Idx → BitVec 32) = extui 32 (m ((c : Thread nD τ).loc main_arg1)) natLt_1_32 := by
  dsimp only [Gen.V, Gen.hostOps0]; after_results

/-! ## One block -/

theorem zero_offsets : (![0, 0] : Fin 2 → Nat) = fun _ => 0 := funext fun a => by fin_cases a <;> rfl

/-- The word the body stores at an entry of a block: the filler where the loaded widened bit differs from zero,
    the loaded word of the table elsewhere. -/
theorem stored_word (x0 x1 : Vec F S256x8192 .i32) (j : S256x8192.Idx) :
    k0_pay1 x0 x1 j = Scalar.select (IntOp.cmpi .ne (x1 j) 0#32) filler (x0 j) := rfl

/-- The three index maps, decided over the 16 points: the two inputs' blocks move with the output's, which at
    point `t` is block `t` of the rows and the one block of the columns. -/
theorem block_indices : ∀ t : Fin cfg0.N,
    win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) = t.val
    ∧ win0_2.index t (1 : Fin 2) = 0 :=
  (by decide +kernel : ∀ t : Fin grid0.N, _)

/-- What point `t` writes back is block `t` of the masked fill of the two argument arrays. -/
theorem flushed_eq (c : Dev nD) (t : Fin cfg0.N) :
    (dats m 0 c).flushed 2 t = ((cfg0.win 2).blk t).view.read (Elt F)
      (fill (m ((c : Thread nD τ).loc main_arg0)) (m ((c : Thread nD τ).loc main_arg1))) := by
  rw [flushed2]
  unfold out0_2
  rw [View.canon_unit_zero zero_offsets]
  simp only [View.ld_unit_zero (S := S256x8192) zero_offsets]
  obtain ⟨e0, e1, e2, e3, -, -⟩ := block_indices t
  funext j
  show k0_pay1 (iblk m c 0 t) (iblk m c 1 t) j = _
  rw [stored_word]
  show Scalar.select (IntOp.cmpi .ne (V m c main_v0 (((cfg0.win 1).blk t).view.emb j)) 0#32) filler
        (V m c main_arg0 (((cfg0.win 0).blk t).view.emb j))
      = Scalar.select (m ((c : Thread nD τ).loc main_arg1) (((cfg0.win 2).blk t).view.emb j)) filler
        (m ((c : Thread nD τ).loc main_arg0) (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 8192 + 1 * (j 1).val = win0_2.index t (1 : Fin 2) * 8192 + 1 * (j 1).val; omega
  have h1 : ((cfg0.win 1).blk t).view.emb j = ((cfg0.win 2).blk t).view.emb j := by
    funext a; apply Fin.ext
    match a with
    | ⟨0, _⟩ => show win0_1.index t (0 : Fin 2) * 256 + 1 * (j 0).val = win0_2.index t (0 : Fin 2) * 256 + 1 * (j 0).val; omega
    | ⟨1, _⟩ => show win0_1.index t (1 : Fin 2) * 8192 + 1 * (j 1).val = win0_2.index t (1 : Fin 2) * 8192 + 1 * (j 1).val; omega
  rw [h0, h1, widened_bits, V_main_arg0]
  show Scalar.select (IntOp.cmpi .ne ((m ((c : Thread nD τ).loc main_arg1) (((cfg0.win 2).blk t).view.emb j)).setWidth 32) 0#32) filler _ = _
  rw [ne_zero_widen]

/-! ## The blocks tile the rows -/

/-- An entry lies in point `t`'s block iff each of its coordinates lies in the block's range on that axis. -/
theorem mem_block (t : Fin cfg0.N) (i : S4096x8192.Idx) :
    i ∈ ((cfg0.win 2).blk t).view.set ↔ ∀ a : Fin 2, win0_2.index t a * S256x8192.size a ≤ (i a).val
      ∧ (i a).val < win0_2.index t a * S256x8192.size a + S256x8192.size a := by
  show i ∈ ((View.whole main_v1).slice (win0_2.rect t)).set ↔ _
  rw [View.set_slice_whole, Rect.mem_set_unit]
  exact Iff.rfl

/-- Every entry is written back by some point: row `r` by point `r / 256`. -/
theorem rows_tiled (i : S4096x8192.Idx) :
    ∃ t : Fin cfg0.N, (cfg0.win 2).flush t = true ∧ i ∈ ((cfg0.win 2).blk t).view.set := by
  have hi0 : (i 0).val < 4096 := (i 0).isLt
  have hi1 : (i 1).val < 8192 := (i 1).isLt
  have hN : cfg0.N = 16 := N_0
  obtain ⟨t, ht⟩ : ∃ t : Fin cfg0.N, t.val = (i 0).val / 256 := ⟨⟨(i 0).val / 256, by rw [hN]; omega⟩, rfl⟩
  obtain ⟨-, -, -, -, e4, e5⟩ := block_indices t
  refine ⟨t, flush0_2 t, ?_⟩
  rw [mem_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 8192 ≤ (i 1).val ∧ (i 1).val < win0_2.index t (1 : Fin 2) * 8192 + 8192; omega

/-! ## The whole array, and the run -/

/-- After the last point the result array is the masked fill of the two argument arrays. -/
theorem final (c : Dev nD) :
    (dats m 0 c).arrAt 2 cfg0.N = fill (m ((c : Thread nD τ).loc main_arg0)) (m ((c : Thread nD τ).loc main_arg1)) :=
  (dats m 0 c).arrAt_eq_of_cover 2 (fill (m ((c : Thread nD τ).loc main_arg0)) (m ((c : Thread nD τ).loc main_arg1)))
    (fun t _ => flushed_eq m c t) rows_tiled

/-- Every weakly fair execution of the kernel's program terminates with the result array at the masked fill of
    the arguments, and the arguments as they were. -/
theorem run : θ_run defs (onTc (τ := τ) (main (F := F))) ⟨m, fun _ => 0, ρ⟩ fun r => ∀ c : Dev nD,
      r.2.mem ((c : Thread nD τ).loc main_v1) = fill (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Filled

end
-- ==== Proof.ReferenceFilled.lean ====
/-
  The reference program is the masked fill.

  The reference makes the one-entry table holding the filler word 22, spreads it over the whole shape,
  and then chooses, entry by entry, between that spread filler and the table's word according to the
  bit. Read at an entry, the spread filler is the filler itself, so the reference's result is `fill` of
  its two arguments.
-/
import proofs.«111843_j13950053778295_2_alg».proof.Proof.Gen.ReferenceIdeal.Read
import proofs.«111843_j13950053778295_2_alg».proof.Proof.MaskedFill

noncomputable section

namespace Cert.ReferenceIdeal.Filled

open Cert.ReferenceIdeal Cert.ReferenceIdeal.Gen Cert.ReferenceIdeal.Read Idealize.ShloMosaic Cert.MaskedFill

variable {F : FTy → Type} [FloatOps F]

/-- Entry by entry the reference chooses between the filler (the constant 22 spread over the shape, read at
    the entry) and the table's word, by the bit at that entry. -/
theorem reference_is_fill (x : (⟨S4096x8192, .i32⟩ : BufTy).Contents (Elt F)) (bits : (⟨S4096x8192, .i1⟩ : BufTy).Contents (Elt F)) :
    val_main_v0 (F := F) x bits = fill x bits := by
  funext i
  rw [val_main_v0_apply, val_main_call0_v0_apply, val_main_c_apply]
  rfl

end Cert.ReferenceIdeal.Filled

end
-- ==== Proof.lean ====
/-
  Masked fill: a Pallas kernel against `jnp.where`.

  Both programs take a table `x` of 4096 × 8192 thirty-two-bit words and a table `mask` of bits of the same
  shape, and return the table that holds the filler word 22 wherever the bit is set and the word of `x`
  elsewhere (`MaskedFill.fill`). No floating-point value occurs, so the comparison over the extended reals is a
  comparison of words, and no precondition is needed.

  * The reference spreads the constant 22 over the shape and selects entry by entry on the bit
    (`ReferenceFilled.reference_is_fill`, over the program's run read one operation at a time).
  * The kernel first widens every bit by zeros to a 32-bit word, copies `x` into the result's buffer, and then
    walks the rows in 16 blocks of 256: at each block it stores the filler where the widened bit differs from
    zero and the word of `x` elsewhere. A widened bit differs from zero exactly when the bit was set
    (`MaskedFill.ne_zero_widen`), so each block written back is that block of `fill x mask`; the blocks tile the
    rows, so the result array is `fill x mask` (`KernelFilled.run`).

  The three programs' runs terminate without fault and leave their arguments unchanged: for the two programs
  with a kernel this is their generated frame, for the reference its generated run with the result dropped. The
  idealization rewrote nothing, so the conjunct relating the kernel to its idealization is `True`.
-/
import proofs.«111843_j13950053778295_2_alg».proof.Defs
import proofs.«111843_j13950053778295_2_alg».proof.Proof.Gen.Kernel
import proofs.«111843_j13950053778295_2_alg».proof.Proof.Gen.Kernel.Skeleton
import proofs.«111843_j13950053778295_2_alg».proof.Proof.Gen.Kernel.Launch
import proofs.«111843_j13950053778295_2_alg».proof.Proof.Gen.Kernel.Points
import proofs.«111843_j13950053778295_2_alg».proof.Proof.Gen.Kernel.Frame
import proofs.«111843_j13950053778295_2_alg».proof.Proof.Gen.KernelIdeal
import proofs.«111843_j13950053778295_2_alg».proof.Proof.Gen.KernelIdeal.Skeleton
import proofs.«111843_j13950053778295_2_alg».proof.Proof.Gen.KernelIdeal.Launch
import proofs.«111843_j13950053778295_2_alg».proof.Proof.Gen.KernelIdeal.Points
import proofs.«111843_j13950053778295_2_alg».proof.Proof.Gen.KernelIdeal.Frame
import proofs.«111843_j13950053778295_2_alg».proof.Proof.Gen.ReferenceIdeal
import proofs.«111843_j13950053778295_2_alg».proof.Proof.Gen.KernelIdeal.Value
import proofs.«111843_j13950053778295_2_alg».proof.Proof.Gen.ReferenceIdeal.Run
import proofs.«111843_j13950053778295_2_alg».proof.Proof.Gen.ReferenceIdeal.Read
import proofs.«111843_j13950053778295_2_alg».proof.Proof.MaskedFill
import proofs.«111843_j13950053778295_2_alg».proof.Proof.KernelFilled
import proofs.«111843_j13950053778295_2_alg».proof.Proof.ReferenceFilled
import Idealize.ShloMosaic.Adequacy
import Idealize.ShloMosaic.Init

noncomputable section

namespace Cert.Proof

open Idealize.ShloMosaic Idealize.ShloMosaic.TcCoe Idealize.SL.Sem

/-- The kernel's program, read at words, runs and leaves its arguments unchanged. -/
theorem frame_kernel : Cert.frame_Kernel := fun m ρ _ => Cert.Kernel.Gen.frame m ρ

/-- So does the same program read at the extended reals. -/
theorem frame_kernel_ideal : Cert.frame_KernelIdeal := fun m ρ _ => Cert.KernelIdeal.Gen.frame m ρ

/-- The reference runs and leaves its arguments unchanged: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel's program. -/
theorem preserves : Cert.preserves_Kernel_KernelIdeal := trivial

/-- From memories that agree on `x` and `mask`, the kernel and the reference both end with the masked fill of
    `x` by `mask` as their result. -/
theorem algebraic : Cert.algebraic_KernelIdeal_ReferenceIdeal := by
  intro m ρ m' ρ' _ hagree
  refine ⟨_, Cert.KernelIdeal.Filled.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.Filled.reference_is_fill, (hagree c).1, (hagree c).2]

theorem claim : Cert.Claim :=
  ⟨Cert.Kernel.Gen.facts, Cert.KernelIdeal.Gen.facts, Cert.ReferenceIdeal.Gen.facts,
    frame_kernel, frame_kernel_ideal, frame_reference, preserves, algebraic⟩

end Cert.Proof

end
